-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100x8192 : Shape := ⟨2, ![100, 8192]⟩
abbrev S8192x8192 : Shape := ⟨2, ![8192, 8192]⟩
abbrev S_ : Shape := ⟨0, ![]⟩

class Facts : Prop where
  bcast_S_S100x8192 : S_.BroadcastsInDim S100x8192 (![] : Fin 0 → Fin S100x8192.rank)
  reducesTo_S100x8192_S_d0_1 : S100x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S100x8192 .f32) (main_arg1 : FVec F S100x8192 .f32) (main_arg2 : FVec F S8192x8192 .f32) : IVec S_ 1 :=
  let main_v0 : FVec F S100x8192 .f32 := Host.absf main_arg0
  let main_cst : FVec F S_ .f32 := constant S_ .f32 0x7F800000#32
  let main_v1 : FVec F S100x8192 .f32 := broadcastInDim S100x8192 ![] bcast_S_S100x8192 main_cst
  let main_v2 : IVec S100x8192 1 := cmpf .olt main_v0 main_v1
  let main_c : IVec S_ 1 := constantI S_ 1 1#1
  let main_v3 : IVec S_ 1 := (fun x v => Host.reduce IntOp.andi x v reducesTo_S100x8192_S_d0_1 h_S_) main_v2 main_c
  let main_v4 : FVec F S100x8192 .f32 := Host.absf main_arg1
  let main_cst_0 : FVec F S_ .f32 := constant S_ .f32 0x7F800000#32
  let main_v5 : FVec F S100x8192 .f32 := broadcastInDim S100x8192 ![] bcast_S_S100x8192 main_cst_0
  let main_v6 : IVec S100x8192 1 := cmpf .olt main_v4 main_v5
  let main_c_1 : IVec S_ 1 := constantI S_ 1 1#1
  let main_v7 : IVec S_ 1 := (fun x v => Host.reduce IntOp.andi x v reducesTo_S100x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S100x8192 : Shape := ⟨2, ![100, 8192]⟩
abbrev S8192x8192 : Shape := ⟨2, ![8192, 8192]⟩
abbrev S_ : Shape := ⟨0, ![]⟩
abbrev S100 : Shape := ⟨1, ![100]⟩
abbrev S100x1 : Shape := ⟨2, ![100, 1]⟩
abbrev S1x100 : Shape := ⟨2, ![1, 100]⟩
abbrev S100x100 : Shape := ⟨2, ![100, 100]⟩
abbrev S8192x100 : Shape := ⟨2, ![8192, 100]⟩
abbrev S16x128 : Shape := ⟨2, ![16, 128]⟩
abbrev S8192x256 : Shape := ⟨2, ![8192, 256]⟩
abbrev S8x128 : Shape := ⟨2, ![8, 128]⟩
abbrev S1x1 : Shape := ⟨2, ![1, 1]⟩
abbrev S100x256 : Shape := ⟨2, ![100, 256]⟩
abbrev S1 : Shape := ⟨1, ![1]⟩

abbrev nBuf : Space → Nat
  | .hbm => 121
  | .vmem => 6
  | .smem => 0
  | _ => 0

abbrev bufTy : (tb : Table) → Fin (tcTables nBuf tb) → BufTy
  | .hbm, ⟨0, _⟩ => ⟨S100x8192, .f32⟩
  | .hbm, ⟨1, _⟩ => ⟨S100x8192, .f32⟩
  | .hbm, ⟨2, _⟩ => ⟨S8192x8192, .f32⟩
  | .hbm, ⟨3, _⟩ => ⟨S100x8192, .f32⟩
  | .hbm, ⟨4, _⟩ => ⟨S_, .f32⟩
  | .hbm, ⟨5, _⟩ => ⟨S100, .f32⟩
  | .hbm, ⟨6, _⟩ => ⟨S100x1, .f32⟩
  | .hbm, ⟨7, _⟩ => ⟨S100x8192, .f32⟩
  | .hbm, ⟨8, _⟩ => ⟨S_, .f32⟩
  | .hbm, ⟨9, _⟩ => ⟨S100, .f32⟩
  | .hbm, ⟨10, _⟩ => ⟨S1x100, .f32⟩
  | .hbm, ⟨11, _⟩ => ⟨S100x100, .f32⟩
  | .hbm, ⟨12, _⟩ => ⟨S100x100, .f32⟩
  | .hbm, ⟨13, _⟩ => ⟨S100x100, .f32⟩
  | .hbm, ⟨14, _⟩ => ⟨S8192x100, .f32⟩
  | .hbm, ⟨15, _⟩ => ⟨S100x100, .f32⟩
  | .hbm, ⟨16, _⟩ => ⟨S_, .f32⟩
  | .hbm, ⟨17, _⟩ => ⟨S100x100, .f32⟩
  | .hbm, ⟨18, _⟩ => ⟨S100x100, .f32⟩
  | .hbm, ⟨19, _⟩ => ⟨S100x100, .f32⟩
  | .hbm, ⟨20, _⟩ => ⟨S100x100, .f32⟩
  | .hbm, ⟨21, _⟩ => ⟨S_, .f32⟩
  | .hbm, ⟨22, _⟩ => ⟨S100x100, .f32⟩
  | .hbm, ⟨23, _⟩ => ⟨S100x100, .f32⟩
  | .hbm, ⟨24, _⟩ => ⟨S100x100, .f32⟩
  | .hbm, ⟨25, _⟩ => ⟨S100x8192, .f32⟩
  | .hbm, ⟨26, _⟩ => ⟨S_, .f32⟩
  | .hbm, ⟨27, _⟩ => ⟨S100, .f32⟩
  | .hbm, ⟨28, _⟩ => ⟨S100x1, .f32⟩
  | .hbm, ⟨29, _⟩ => ⟨S100x8192, .f32⟩
  | .hbm, ⟨30, _⟩ => ⟨S_, .f32⟩
  | .hbm, ⟨31, _⟩ => ⟨S100, .f32⟩
  | .hbm, ⟨32, _⟩ => ⟨S1x100, .f32⟩
  | .hbm, ⟨33, _⟩ => ⟨S100x100, .f32⟩
  | .hbm, ⟨34, _⟩ => ⟨S100x100, .f32⟩
  | .hbm, ⟨35, _⟩ => ⟨S100x100, .f32⟩
  | .hbm, ⟨36, _⟩ => ⟨S8192x100, .f32⟩
  | .hbm, ⟨37, _⟩ => ⟨S100x100, .f32⟩
  | .hbm, ⟨38, _⟩ => ⟨S_, .f32⟩
  | .hbm, ⟨39, _⟩ => ⟨S100x100, .f32⟩
  | .hbm, ⟨40, _⟩ => ⟨S100x100, .f32⟩
  | .hbm, ⟨41, _⟩ => ⟨S100x100, .f32⟩
  | .hbm, ⟨42, _⟩ => ⟨S100x100, .f32⟩
  | .hbm, ⟨43, _⟩ => ⟨S_, .f32⟩
  | .hbm, ⟨44, _⟩ => ⟨S100x100, .f32⟩
  | .hbm, ⟨45, _⟩ => ⟨S100x100, .f32⟩
  | .hbm, ⟨46, _⟩ => ⟨S100x100, .f32⟩
  | .hbm, ⟨47, _⟩ => ⟨S100x8192, .f32⟩
  | .hbm, ⟨48, _⟩ => ⟨S_, .f32⟩
  | .hbm, ⟨49, _⟩ => ⟨S100, .f32⟩
  | .hbm, ⟨50, _⟩ => ⟨S100x1, .f32⟩
  | .hbm, ⟨51, _⟩ => ⟨S100x8192, .f32⟩
  | .hbm, ⟨52, _⟩ => ⟨S_, .f32⟩
  | .hbm, ⟨53, _⟩ => ⟨S100, .f32⟩
  | .hbm, ⟨54, _⟩ => ⟨S1x100, .f32⟩
  | .hbm, ⟨55, _⟩ => ⟨S100x100, .f32⟩
  | .hbm, ⟨56, _⟩ => ⟨S100x100, .f32⟩
  | .hbm, ⟨57, _⟩ => ⟨S100x100, .f32⟩
  | .hbm, ⟨58, _⟩ => ⟨S8192x100, .f32⟩
  | .hbm, ⟨59, _⟩ => ⟨S100x100, .f32⟩
  | .hbm, ⟨60, _⟩ => ⟨S_, .f32⟩
  | .hbm, ⟨61, _⟩ => ⟨S100x100, .f32⟩
  | .hbm, ⟨62, _⟩ => ⟨S100x100, .f32⟩
  | .hbm, ⟨63, _⟩ => ⟨S100x100, .f32⟩
  | .hbm, ⟨64, _⟩ => ⟨S100x100, .f32⟩
  | .hbm, ⟨65, _⟩ => ⟨S_, .f32⟩
  | .hbm, ⟨66, _⟩ => ⟨S100x100, .f32⟩
  | .hbm, ⟨67, _⟩ => ⟨S100x100, .f32⟩
  | .hbm, ⟨68, _⟩ => ⟨S100x100, .f32⟩
  | .hbm, ⟨69, _⟩ => ⟨S100x100, .i32⟩
  | .hbm, ⟨70, _⟩ => ⟨S_, .i32⟩
  | .hbm, ⟨71, _⟩ => ⟨S100x100, .i32⟩
  | .hbm, ⟨72, _⟩ => ⟨S100x100, .i32⟩
  | .hbm, ⟨73, _⟩ => ⟨S100x100, .i32⟩
  | .hbm, ⟨74, _⟩ => ⟨S100x100, .i1⟩
  | .hbm, ⟨75, _⟩ => ⟨S_, .f32⟩
  | .hbm, ⟨76, _⟩ => ⟨S100x100, .f32⟩
  | .hbm, ⟨77, _⟩ => ⟨S100x100, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S100x100, .i32⟩
  | .hbm, ⟨83, _⟩ => ⟨S_, .i32⟩
  | .hbm, ⟨84, _⟩ => ⟨S100x100, .i32⟩
  | .hbm, ⟨85, _⟩ => ⟨S100x100, .i32⟩
  | .hbm, ⟨86, _⟩ => ⟨S100x100, .i32⟩
  | .hbm, ⟨87, _⟩ => ⟨S100x100, .i1⟩
  | .hbm, ⟨88, _⟩ => ⟨S_, .f32⟩
  | .hbm, ⟨89, _⟩ => ⟨S100x100, .f32⟩
  | .hbm, ⟨90, _⟩ => ⟨S100x100, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S100x100, .i32⟩
  | .hbm, ⟨96, _⟩ => ⟨S_, .i32⟩
  | .hbm, ⟨97, _⟩ => ⟨S100x100, .i32⟩
  | .hbm, ⟨98, _⟩ => ⟨S100x100, .i32⟩
  | .hbm, ⟨99, _⟩ => ⟨S100x100, .i32⟩
  | .hbm, ⟨100, _⟩ => ⟨S100x100, .i1⟩
  | .hbm, ⟨101, _⟩ => ⟨S_, .f32⟩
  | .hbm, ⟨102, _⟩ => ⟨S100x100, .f32⟩
  | .hbm, ⟨103, _⟩ => ⟨S100x100, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S100x8192, .f32⟩
  | .hbm, ⟨113, _⟩ => ⟨S100x8192, .bf16⟩
  | .hbm, ⟨114, _⟩ => ⟨S16x128, .f32⟩
  | .hbm, ⟨115, _⟩ => ⟨S1x1, .f32⟩
  | .hbm, ⟨116, _⟩ => ⟨S_, .f32⟩
  | .hbm, ⟨117, _⟩ => ⟨S1x1, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S100x8192, .bf16⟩
  | .local _ .vmem, ⟨1, _⟩ => ⟨S8192x256, .f32⟩
  | .local _ .vmem, ⟨2, _⟩ => ⟨S8192x256, .f32⟩
  | .local _ .vmem, ⟨3, _⟩ => ⟨S8x128, .f32⟩
  | .local _ .vmem, ⟨4, _⟩ => ⟨S8x128, .f32⟩
  | .local _ .vmem, ⟨5, _⟩ => ⟨S1x1, .f32⟩
  | _, _ => ⟨S100x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_call1_v0 : Ref sig .tc := ⟨.hbm, 82, rfl⟩
abbrev main_call1_c : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_cst : Ref sig .tc := ⟨.hbm, 88, rfl⟩
abbrev main_call1_v5 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_call2_v0 : Ref sig .tc := ⟨.hbm, 95, rfl⟩
abbrev main_call2_c : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_cst : Ref sig .tc := ⟨.hbm, 101, rfl⟩
abbrev main_call2_v5 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_cst_16 : Ref sig .tc := ⟨.hbm, 106, rfl⟩
abbrev main_v62 : Ref sig .tc := ⟨.hbm, 107, rfl⟩
abbrev main_v63 : Ref sig .tc := ⟨.hbm, 108, rfl⟩
abbrev main_cst_17 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S100x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S100x8192_S100_d1 : S100x8192.ReducesTo [1] S100
  h_S_ : 0 < S_.numel
  bcast_S100_S100x1_0 : S100.BroadcastsInDim S100x1 (![0] : Fin 1 → Fin S100x1.rank)
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  transposes_S100x8192_S8192x100_1_0 : S100x8192.Transposes [1, 0] S8192x100
  bcast_S_S100x100 : S_.BroadcastsInDim S100x100 (![] : Fin 0 → Fin S100x100.rank)
  reducesTo_S100x100_S_d0_1 : S100x100.ReducesTo [0, 1] S_
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S100x8192_S100x8192_0_0 : ∀ a, (![0, 0] : Fin 2 → Nat) a + S100x8192.size a ≤ S100x8192.size a
  h_S100x8192 : 0 < S100x8192.numel
  shapeCasts_S100x8192_S100x8192 : S100x8192.ShapeCasts S100x8192
  inb_S8192x256_S8192x256_0_0 : ∀ a, (![0, 0] : Fin 2 → Nat) a + S8192x256.size a ≤ S8192x256.size a
  h_S8192x256 : 0 < S8192x256.numel
  reduces_S100x256_S100 : S100x256.Reduces [1] S100
  shapeCasts_S100_S100x1 : S100.ShapeCasts S100x1
  reduces_S100x1_S1 : S100x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S100x8192_S8192x100_S100x100_1_0_0_1_n_n_wf : DotDims.WF S100x8192 S8192x100 S100x100 [1] [0] [0] [1] [] []
  dot_S100x8192_S8192x256_S100x256_1_0_0_1_n_n_wf : DotDims.WF S100x8192 S8192x256 S100x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x8192.size a ≤ S100x8192.size a
  hwx0_0 : ∀ i : grid0.Coords, EltTy.bits .bf16 = 32 ∨ (Rect.block (s := S100x8192) S100x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x8192.size a
  hwx0_1 : ∀ i : grid0.Coords, EltTy.bits .f32 = 32 ∨ (Rect.block (s := S8192x8192) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def dot_S100x8192_S8192x100_S100x100_1_0_0_1_n_n : DotDims S100x8192 S8192x100 S100x100 where
  lhsContracting := [1]
  rhsContracting := [0]
  lhsNonContracting := [0]
  rhsNonContracting := [1]
  lhsBatch := []
  rhsBatch := []
  wf := dot_S100x8192_S8192x100_S100x100_1_0_0_1_n_n_wf
def dot_S100x8192_S8192x256_S100x256_1_0_0_1_n_n : DotDims S100x8192 S8192x256 S100x256 where
  lhsContracting := [1]
  rhsContracting := [0]
  lhsNonContracting := [0]
  rhsNonContracting := [1]
  lhsBatch := []
  rhsBatch := []
  wf := dot_S100x8192_S8192x256_S100x256_1_0_0_1_n_n_wf

abbrev win0_0 : Pipeline.Window sig grid0 :=
  Pipeline.Window.ofSpec (Memref.whole main_v67) S100x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100x8192 : Shape := ⟨2, ![100, 8192]⟩
abbrev S8192x8192 : Shape := ⟨2, ![8192, 8192]⟩
abbrev S_ : Shape := ⟨0, ![]⟩
abbrev S100 : Shape := ⟨1, ![100]⟩
abbrev S100x1 : Shape := ⟨2, ![100, 1]⟩
abbrev S1x100 : Shape := ⟨2, ![1, 100]⟩
abbrev S100x100 : Shape := ⟨2, ![100, 100]⟩
abbrev S8192x100 : Shape := ⟨2, ![8192, 100]⟩

abbrev nBuf : Space → Nat
  | .hbm => 118
  | .vmem => 0
  | .smem => 0
  | _ => 0

abbrev bufTy : (tb : Table) → Fin (tcTables nBuf tb) → BufTy
  | .hbm, ⟨0, _⟩ => ⟨S100x8192, .f32⟩
  | .hbm, ⟨1, _⟩ => ⟨S100x8192, .f32⟩
  | .hbm, ⟨2, _⟩ => ⟨S8192x8192, .f32⟩
  | .hbm, ⟨3, _⟩ => ⟨S100x8192, .f32⟩
  | .hbm, ⟨4, _⟩ => ⟨S_, .f32⟩
  | .hbm, ⟨5, _⟩ => ⟨S100, .f32⟩
  | .hbm, ⟨6, _⟩ => ⟨S100x1, .f32⟩
  | .hbm, ⟨7, _⟩ => ⟨S100x8192, .f32⟩
  | .hbm, ⟨8, _⟩ => ⟨S_, .f32⟩
  | .hbm, ⟨9, _⟩ => ⟨S100, .f32⟩
  | .hbm, ⟨10, _⟩ => ⟨S1x100, .f32⟩
  | .hbm, ⟨11, _⟩ => ⟨S100x100, .f32⟩
  | .hbm, ⟨12, _⟩ => ⟨S100x100, .f32⟩
  | .hbm, ⟨13, _⟩ => ⟨S100x100, .f32⟩
  | .hbm, ⟨14, _⟩ => ⟨S8192x100, .f32⟩
  | .hbm, ⟨15, _⟩ => ⟨S100x100, .f32⟩
  | .hbm, ⟨16, _⟩ => ⟨S_, .f32⟩
  | .hbm, ⟨17, _⟩ => ⟨S100x100, .f32⟩
  | .hbm, ⟨18, _⟩ => ⟨S100x100, .f32⟩
  | .hbm, ⟨19, _⟩ => ⟨S100x100, .f32⟩
  | .hbm, ⟨20, _⟩ => ⟨S100x100, .f32⟩
  | .hbm, ⟨21, _⟩ => ⟨S_, .f32⟩
  | .hbm, ⟨22, _⟩ => ⟨S100x100, .f32⟩
  | .hbm, ⟨23, _⟩ => ⟨S100x100, .f32⟩
  | .hbm, ⟨24, _⟩ => ⟨S100x100, .f32⟩
  | .hbm, ⟨25, _⟩ => ⟨S100x8192, .f32⟩
  | .hbm, ⟨26, _⟩ => ⟨S_, .f32⟩
  | .hbm, ⟨27, _⟩ => ⟨S100, .f32⟩
  | .hbm, ⟨28, _⟩ => ⟨S100x1, .f32⟩
  | .hbm, ⟨29, _⟩ => ⟨S100x8192, .f32⟩
  | .hbm, ⟨30, _⟩ => ⟨S_, .f32⟩
  | .hbm, ⟨31, _⟩ => ⟨S100, .f32⟩
  | .hbm, ⟨32, _⟩ => ⟨S1x100, .f32⟩
  | .hbm, ⟨33, _⟩ => ⟨S100x100, .f32⟩
  | .hbm, ⟨34, _⟩ => ⟨S100x100, .f32⟩
  | .hbm, ⟨35, _⟩ => ⟨S100x100, .f32⟩
  | .hbm, ⟨36, _⟩ => ⟨S8192x100, .f32⟩
  | .hbm, ⟨37, _⟩ => ⟨S100x100, .f32⟩
  | .hbm, ⟨38, _⟩ => ⟨S_, .f32⟩
  | .hbm, ⟨39, _⟩ => ⟨S100x100, .f32⟩
  | .hbm, ⟨40, _⟩ => ⟨S100x100, .f32⟩
  | .hbm, ⟨41, _⟩ => ⟨S100x100, .f32⟩
  | .hbm, ⟨42, _⟩ => ⟨S100x100, .f32⟩
  | .hbm, ⟨43, _⟩ => ⟨S_, .f32⟩
  | .hbm, ⟨44, _⟩ => ⟨S100x100, .f32⟩
  | .hbm, ⟨45, _⟩ => ⟨S100x100, .f32⟩
  | .hbm, ⟨46, _⟩ => ⟨S100x100, .f32⟩
  | .hbm, ⟨47, _⟩ => ⟨S100x8192, .f32⟩
  | .hbm, ⟨48, _⟩ => ⟨S_, .f32⟩
  | .hbm, ⟨49, _⟩ => ⟨S100, .f32⟩
  | .hbm, ⟨50, _⟩ => ⟨S100x1, .f32⟩
  | .hbm, ⟨51, _⟩ => ⟨S100x8192, .f32⟩
  | .hbm, ⟨52, _⟩ => ⟨S_, .f32⟩
  | .hbm, ⟨53, _⟩ => ⟨S100, .f32⟩
  | .hbm, ⟨54, _⟩ => ⟨S1x100, .f32⟩
  | .hbm, ⟨55, _⟩ => ⟨S100x100, .f32⟩
  | .hbm, ⟨56, _⟩ => ⟨S100x100, .f32⟩
  | .hbm, ⟨57, _⟩ => ⟨S100x100, .f32⟩
  | .hbm, ⟨58, _⟩ => ⟨S8192x100, .f32⟩
  | .hbm, ⟨59, _⟩ => ⟨S100x100, .f32⟩
  | .hbm, ⟨60, _⟩ => ⟨S_, .f32⟩
  | .hbm, ⟨61, _⟩ => ⟨S100x100, .f32⟩
  | .hbm, ⟨62, _⟩ => ⟨S100x100, .f32⟩
  | .hbm, ⟨63, _⟩ => ⟨S100x100, .f32⟩
  | .hbm, ⟨64, _⟩ => ⟨S100x100, .f32⟩
  | .hbm, ⟨65, _⟩ => ⟨S_, .f32⟩
  | .hbm, ⟨66, _⟩ => ⟨S100x100, .f32⟩
  | .hbm, ⟨67, _⟩ => ⟨S100x100, .f32⟩
  | .hbm, ⟨68, _⟩ => ⟨S100x100, .f32⟩
  | .hbm, ⟨69, _⟩ => ⟨S100x100, .i32⟩
  | .hbm, ⟨70, _⟩ => ⟨S_, .i32⟩
  | .hbm, ⟨71, _⟩ => ⟨S100x100, .i32⟩
  | .hbm, ⟨72, _⟩ => ⟨S100x100, .i32⟩
  | .hbm, ⟨73, _⟩ => ⟨S100x100, .i32⟩
  | .hbm, ⟨74, _⟩ => ⟨S100x100, .i1⟩
  | .hbm, ⟨75, _⟩ => ⟨S_, .f32⟩
  | .hbm, ⟨76, _⟩ => ⟨S100x100, .f32⟩
  | .hbm, ⟨77, _⟩ => ⟨S100x100, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S100x100, .i32⟩
  | .hbm, ⟨83, _⟩ => ⟨S_, .i32⟩
  | .hbm, ⟨84, _⟩ => ⟨S100x100, .i32⟩
  | .hbm, ⟨85, _⟩ => ⟨S100x100, .i32⟩
  | .hbm, ⟨86, _⟩ => ⟨S100x100, .i32⟩
  | .hbm, ⟨87, _⟩ => ⟨S100x100, .i1⟩
  | .hbm, ⟨88, _⟩ => ⟨S_, .f32⟩
  | .hbm, ⟨89, _⟩ => ⟨S100x100, .f32⟩
  | .hbm, ⟨90, _⟩ => ⟨S100x100, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S100x100, .i32⟩
  | .hbm, ⟨96, _⟩ => ⟨S_, .i32⟩
  | .hbm, ⟨97, _⟩ => ⟨S100x100, .i32⟩
  | .hbm, ⟨98, _⟩ => ⟨S100x100, .i32⟩
  | .hbm, ⟨99, _⟩ => ⟨S100x100, .i32⟩
  | .hbm, ⟨100, _⟩ => ⟨S100x100, .i1⟩
  | .hbm, ⟨101, _⟩ => ⟨S_, .f32⟩
  | .hbm, ⟨102, _⟩ => ⟨S100x100, .f32⟩
  | .hbm, ⟨103, _⟩ => ⟨S100x100, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S100x8192, .f32⟩
  | .hbm, ⟨113, _⟩ => ⟨S100x8192, .f32⟩
  | .hbm, ⟨114, _⟩ => ⟨S100x8192, .f32⟩
  | .hbm, ⟨115, _⟩ => ⟨S_, .f32⟩
  | .hbm, ⟨116, _⟩ => ⟨S_, .f32⟩
  | .hbm, ⟨117, _⟩ => ⟨S_, .f32⟩
  | _, _ => ⟨S100x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_call1_v0 : Ref sig .tc := ⟨.hbm, 82, rfl⟩
abbrev main_call1_c : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_cst : Ref sig .tc := ⟨.hbm, 88, rfl⟩
abbrev main_call1_v5 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_call2_v0 : Ref sig .tc := ⟨.hbm, 95, rfl⟩
abbrev main_call2_c : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_cst : Ref sig .tc := ⟨.hbm, 101, rfl⟩
abbrev main_call2_v5 : Ref sig .tc := ⟨.hbm, 102, rfl⟩
abbrev main_v60 : Ref sig .tc := ⟨.hbm, 103, rfl⟩
abbrev main_cst_15 : Ref sig .tc := ⟨.hbm, 104, rfl⟩
abbrev main_v61 : Ref sig .tc := ⟨.hbm, 105, rfl⟩
abbrev main_cst_16 : Ref sig .tc := ⟨.hbm, 106, rfl⟩
abbrev main_v62 : Ref sig .tc := ⟨.hbm, 107, rfl⟩
abbrev main_v63 : Ref sig .tc := ⟨.hbm, 108, rfl⟩
abbrev main_cst_17 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩

abbrev nD : Nat := 1
abbrev τ : Topo := Topo.v7x

variable {F : FTy → Type} [FloatOps F]

class Facts₀ : Prop where
  reducesTo_S100x8192_S100_d1 : S100x8192.ReducesTo [1] S100
  h_S_ : 0 < S_.numel
  bcast_S100_S100x1_0 : S100.BroadcastsInDim S100x1 (![0] : Fin 1 → Fin S100x1.rank)
  bcast_S100_S1x100_1 : S100.BroadcastsInDim S1x100 (![1] : Fin 1 → Fin S1x100.rank)
  bcast_S100x1_S100x100_0_1 : S100x1.BroadcastsInDim S100x100 (![0, 1] : Fin 2 → Fin S100x100.rank)
  bcast_S1x100_S100x100_0_1 : S1x100.BroadcastsInDim S100x100 (![0, 1] : Fin 2 → Fin S100x100.rank)
  transposes_S100x8192_S8192x100_1_0 : S100x8192.Transposes [1, 0] S8192x100
  bcast_S_S100x100 : S_.BroadcastsInDim S100x100 (![] : Fin 0 → Fin S100x100.rank)
  reducesTo_S100x100_S_d0_1 : S100x100.ReducesTo [0, 1] S_
  reducesTo_S100x8192_S_d0_1 : S100x8192.ReducesTo [0, 1] S_
  dot_S100x8192_S8192x100_S100x100_1_0_0_1_n_n_wf : DotDims.WF S100x8192 S8192x100 S100x100 [1] [0] [0] [1] [] []
  dot_S100x8192_S8192x8192_S100x8192_1_0_0_1_n_n_wf : DotDims.WF S100x8192 S8192x8192 S100x8192 [1] [0] [0] [1] [] []

variable [Facts₀]

def dot_S100x8192_S8192x100_S100x100_1_0_0_1_n_n : DotDims S100x8192 S8192x100 S100x100 where
  lhsContracting := [1]
  rhsContracting := [0]
  lhsNonContracting := [0]
  rhsNonContracting := [1]
  lhsBatch := []
  rhsBatch := []
  wf := dot_S100x8192_S8192x100_S100x100_1_0_0_1_n_n_wf
def dot_S100x8192_S8192x8192_S100x8192_1_0_0_1_n_n : DotDims S100x8192 S8192x8192 S100x8192 where
  lhsContracting := [1]
  rhsContracting := [0]
  lhsNonContracting := [0]
  rhsNonContracting := [1]
  lhsBatch := []
  rhsBatch := []
  wf := dot_S100x8192_S8192x8192_S100x8192_1_0_0_1_n_n_wf

class Facts : Prop extends Facts₀ where

variable [Facts]
-- ==== Proof.Pieces.lean ====
/-
  What each control case of the body leaves behind, as values.

  The body's one-entry accumulator is rewritten whole at every grid point: at a core's first point with the accumulating
  store's value over the stored zero, at every later point with that value over what the point before left. At a core's
  last point the output block is stored whole with the broadcast of the accumulator just written. These hold for any float
  interpretation.
-/
import proofs.«120450_j36756330119753_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A core's first point: the accumulator ends at the accumulating store's value over the stored zero. -/
theorem acc_first (c : Dev nD) (i : grid0.Coords) (arg2 : Memref sig .tc .vmem S100x8192 .bf16) (harg2 : arg2.IsWhole)
    (arg3 : Memref sig .tc .vmem S8192x256 .f32) (harg3 : arg3.IsWhole) (arg4 : Memref sig .tc .vmem S8x128 .f32) (harg4 : arg4.IsWhole)
    (arg5 : Memref sig .tc .vmem S1x1 .f32) (harg5 : arg5.IsWhole) (hc0 : cond0_0 i) (hc1 : ¬cond0_1 i)
    (x0 : Vec F S100x8192 .bf16) (x1 : Vec F S8192x256 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, harg3.read_unread, View.ld_unit_zero (S := S100x8192) hz,
    View.ld_unit_zero (S := S8192x256) hz]

/-- A middle point: the accumulator ends at the accumulating store's value over what the point before left. -/
theorem acc_middle (c : Dev nD) (i : grid0.Coords) (arg2 : Memref sig .tc .vmem S100x8192 .bf16) (harg2 : arg2.IsWhole)
    (arg3 : Memref sig .tc .vmem S8192x256 .f32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : ¬cond0_1 i)
    (x0 : Vec F S100x8192 .bf16) (x1 : Vec F S8192x256 .f32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) hz]
  simp only [View.readAt_eq_ld, harg2.read_unread, harg3.read_unread, harg5.read_unread, View.ld_unit_zero (S := S100x8192) hz,
    View.ld_unit_zero (S := S8192x256) hz, View.ld_unit_zero (S := S1x1) hz]

/-- A core's last point: the accumulator likewise, -/
theorem acc_last (c : Dev nD) (i : grid0.Coords) (arg2 : Memref sig .tc .vmem S100x8192 .bf16) (harg2 : arg2.IsWhole)
    (arg3 : Memref sig .tc .vmem S8192x256 .f32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S100x8192 .bf16) (x1 : Vec F S8192x256 .f32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) hz]
  simp only [View.readAt_eq_ld, harg2.read_unread, harg3.read_unread, harg5.read_unread, View.ld_unit_zero (S := S100x8192) hz,
    View.ld_unit_zero (S := S8192x256) hz, View.ld_unit_zero (S := S1x1) hz]

/-- and the output block at the broadcast of the accumulator just written. -/
theorem out_last (c : Dev nD) (i : grid0.Coords) (arg2 : Memref sig .tc .vmem S100x8192 .bf16) (harg2 : arg2.IsWhole)
    (arg3 : Memref sig .tc .vmem S8192x256 .f32) (harg3 : arg3.IsWhole) (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S100x8192 .bf16) (x1 : Vec F S8192x256 .f32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S8x128) hz, View.readCov_unit_zero (S := S1x1) _ hz]
  simp only [View.readAt_eq_ld, harg2.read_unread, harg3.read_unread, harg5.read_unread, View.ld_unit_zero (S := S100x8192) hz,
    View.ld_unit_zero (S := S8192x256) hz, View.ld_unit_zero (S := S1x1) hz]

end Cert.KernelIdeal.Pieces

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.TilePayload.lean ====
/-
  What one grid point adds to the running sum, at the ideal reading.

  At a point the body multiplies the whole difference matrix `d` (100 × 8192) with one column tile `w` (8192 × 256) of the
  weights, squares the product entry by entry, sums the squares along each row and then over the rows, and adds the
  total to the one-entry accumulator it carries. Read on the extended reals this is
      acc + Σ_i Σ_j (Σ_k d(i,k) · w(k,j))²,
  the change of float format of the tile being the identity. The first point of a core's run stores the word of +0.0
  into the accumulator first, and the last one copies the accumulator into every entry of the core's output block.
-/
import proofs.«120450_j36756330119753_2_alg».proof.Proof.Gen.KernelIdeal.Skeleton
import proofs.«120450_j36756330119753_2_alg».proof.Proof.LibDot
import proofs.«120450_j36756330119753_2_alg».proof.Proof.LibRowReduce
import Idealize.ShloMosaic.Lib.Pipeline.Value
import Idealize.ShloMosaic.Lib.ValueIdx
import Idealize.ShloMosaic.PureOps.Ideal.Laws

noncomputable section

namespace Cert.KernelIdeal.TilePayload

open Cert.KernelIdeal Cert.KernelIdeal.Gen
open Idealize.ShloMosaic Idealize.ShloMosaic.ValueIdx
open scoped BigOperators

/-- The product of the difference matrix with one column tile. -/
def tileProd (d : FVec Ideal S100x8192 .bf16) (w : FVec Ideal S8192x256 .f32) : FVec Ideal S100x256 .f32 :=
  matmul dot_S100x8192_S8192x256_S100x256_1_0_0_1_n_n none
    (shapeCast S100x8192 d shapeCasts_S100x8192_S100x8192 : FVec Ideal S100x8192 .bf16)
    (truncf .bf16 w bitsLt_bf16_f32 : FVec Ideal S8192x256 .bf16) (constant S100x256 .f32 0x00000000#32)

/-- The sum of the squared entries of that product: what the point adds. -/
def tileSq (d : FVec Ideal S100x8192 .bf16) (w : FVec Ideal S8192x256 .f32) : EReal :=
  ∑ i : Fin 100, ∑ j : Fin 256, (∑ k : Fin 8192, d (ix2 i k) * w (ix2 k j)) * (∑ k : Fin 8192, d (ix2 i k) * w (ix2 k j))

/-- The accumulating store's value is the accumulator plus the two sums of the squared products, up to layout casts. -/
theorem pay2_eq (d : FVec Ideal S100x8192 .bf16) (w : FVec Ideal S8192x256 .f32) (acc : FVec Ideal S1x1 .f32) :
    k0_pay2 (F := Ideal) d w acc
      = shapeCast S1x1 (addf acc (shapeCast S1x1 (multiReduction .add [0] S1
          (shapeCast S100x1 (multiReduction .add [1] S100 (mulf (tileProd d w) (tileProd d w)) 0x00000000#32
            reduces_S100x256_S100 (.inl rfl) rfl) shapeCasts_S100_S100x1 : FVec Ideal S100x1 .f32)
          0x00000000#32 reduces_S100x1_S1 (.inl rfl) rfl) shapeCasts_S1_S1x1 : FVec Ideal S1x1 .f32)) shapeCasts_S1x1_S1x1 := rfl

/-- An entry of the product: the textbook sum. -/
theorem tileProd_apply (d : FVec Ideal S100x8192 .bf16) (w : FVec Ideal S8192x256 .f32) (i : Fin 100) (j : Fin 256) :
    tileProd d w (ix2 i j) = ∑ k : Fin 8192, d (ix2 i k) * w (ix2 k j) := by
  unfold tileProd
  rw [shapeCast_self]
  exact Cert.LibDot.matmul_zero_apply (a := 100) (k := 8192) (b := 256) dot_S100x8192_S8192x256_S100x256_1_0_0_1_n_n rfl rfl
    (fun _ _ => rfl) (fun _ _ => rfl) (fun _ _ => rfl) (fun _ _ => rfl) none d (truncf .bf16 w bitsLt_bf16_f32) i j

/-- A column of a one-column matrix with the row put back is the entry `(k, c)`. -/
theorem lift_col {a b : ℕ} (h : (⟨2, ![a, b]⟩ : Shape).Reduces [0] ⟨1, ![b]⟩) (c : Fin b) (k : Fin a) :
    h.lift (ix1 c) k = ix2 k c := by
  funext e; apply Fin.ext
  fin_cases e <;> rfl

/-- The one index of a one-entry matrix. -/
theorem idx_one (y : S1x1.Idx) : y = ix2 0 0 := by
  have h0 : (y 0).val < 1 := (y 0).isLt
  have h1 : (y 1).val < 1 := (y 1).isLt
  funext a
  match a with
  | ⟨0, _⟩ => exact Fin.ext (by show (y 0).val = 0; omega)
  | ⟨1, _⟩ => exact Fin.ext (by show (y 1).val = 0; omega)

/-- The accumulating store's value: the accumulator plus the point's share. -/
theorem pay2_apply (d : FVec Ideal S100x8192 .bf16) (w : FVec Ideal S8192x256 .f32) (acc : FVec Ideal S1x1 .f32) (y : S1x1.Idx) :
    k0_pay2 (F := Ideal) d w acc y = acc y + tileSq d w := by
  obtain rfl := idx_one y
  rw [pay2_eq, shapeCast_self, addf_apply]
  refine congrArg (acc (ix2 0 0) + ·) ?_
  rw [shapeCast_apply _ shapeCasts_S1_S1x1 (ix2 0 0) (ix1 0) (by rw [Shape.rowMajor_val_one, Shape.rowMajor_val_two]; rfl)]
  refine (Ideal.multiReduction_add_single _ _ reduces_S100x1_S1 _ _ (ix1 0)).trans ?_
  unfold tileSq
  refine Finset.sum_congr rfl fun (i : Fin 100) _ => ?_
  rw [lift_col reduces_S100x1_S1 0 i,
    shapeCast_apply _ shapeCasts_S100_S100x1 (ix2 i 0) (ix1 i) (by rw [Shape.rowMajor_val_one, Shape.rowMajor_val_two]; simp)]
  refine (Cert.LibRowReduce.multiReduction_add_row _ _ reduces_S100x256_S100 _ _ i).trans ?_
  refine Finset.sum_congr rfl fun (j : Fin 256) _ => ?_
  rw [mulf_apply, tileProd_apply]

/-- The word stored at a core's first point denotes zero. -/
theorem pay1_apply (y : S1x1.Idx) : k0_pay1 (F := Ideal) y = 0 := by
  show Ideal.ofBits .f32 0x00000000#32 = 0
  exact Ideal.ofBits_zero_f32

/-- The output block's store copies the accumulator's entry to every entry of the block. -/
theorem pay3_apply (v : FVec Ideal S1x1 .f32) (y : S8x128.Idx) : k0_pay3 (F := Ideal) v y = v (ix2 0 0) := by
  unfold k0_pay3
  rw [shapeCast_self]
  exact broadcastTo_apply v broadcasts_S1x1_S8x128 y (ix2 0 0) fun a => by
    match a with
    | ⟨0, _⟩ => rfl
    | ⟨1, _⟩ => rfl

end Cert.KernelIdeal.TilePayload

end
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.FrobAlgebra.lean ====
/-
  The regrouping behind a squared Frobenius norm summed tile by tile.

  A matrix with `R` rows and `C = B·T` columns is cut into `B` column tiles of `T` columns. The share of tile `t` is the
  sum of the entries of its columns over all rows; the shares of all tiles add up to the sum of every entry, and so do the
  two running sums of the first and the second half of the tiles. Only commutativity and associativity of the addition are
  used, so the statements hold in any commutative monoid — on the extended reals no finiteness is asked.
-/
import Mathlib.Algebra.BigOperators.Fin
import Mathlib.Algebra.BigOperators.Intervals
import Mathlib.Tactic
import Idealize.ShloMosaic.Lib.ValueIdx
import proofs.«120450_j36756330119753_2_alg».proof.Proof.LibBlocks

noncomputable section

namespace Cert.FrobAlgebra

open Cert.LibBlocks Idealize.ShloMosaic Idealize.ShloMosaic.ValueIdx
open scoped BigOperators

section Tiles

variable {M : Type*} [AddCommMonoid M] {R B T C : ℕ}

/-- The share of column tile `t`: its `T` columns summed over all rows (zero past the last tile). -/
def tileSum (h : B * T = C) (f : Fin R → Fin C → M) (t : ℕ) : M :=
  if ht : t < B then ∑ i : Fin R, ∑ j : Fin T, f i (blockRow h ⟨t, ht⟩ j) else 0

theorem tileSum_of_lt (h : B * T = C) (f : Fin R → Fin C → M) (t : ℕ) (ht : t < B) :
    tileSum h f t = ∑ i : Fin R, ∑ j : Fin T, f i (blockRow h ⟨t, ht⟩ j) := dif_pos ht

/-- The tiles' shares add up to the sum of every entry. -/
theorem sum_tileSum (h : B * T = C) (f : Fin R → Fin C → M) :
    ∑ t ∈ Finset.range B, tileSum h f t = ∑ i : Fin R, ∑ J : Fin C, f i J := by
  rw [Finset.sum_range]
  have e : ∀ t : Fin B, tileSum h f t.val = ∑ i : Fin R, ∑ j : Fin T, f i (blockRow h t j) := fun t =>
    tileSum_of_lt h f t.val t.isLt
  rw [Finset.sum_congr rfl fun t _ => e t, Finset.sum_comm]
  exact Finset.sum_congr rfl fun i _ => sum_blocks h (f i)

/-- Two workers own `H` consecutive tiles each: their two running sums add up to the sum of every entry. -/
theorem two_halves {H : ℕ} (h : (H + H) * T = C) (f : Fin R → Fin C → M) :
    (∑ s ∈ Finset.range H, tileSum h f s) + (∑ s ∈ Finset.range H, tileSum h f (H + s))
      = ∑ i : Fin R, ∑ J : Fin C, f i J := by
  rw [← Finset.sum_range_add, sum_tileSum]

end Tiles

/-! ## The squared entries of a product of a difference with a matrix -/

variable {R K C : ℕ}

/-- Entry `(i, J)` of `(x0 - x1) · w`, squared. -/
def sqEntry (x0 x1 : (⟨2, ![R, K]⟩ : Shape).Idx → EReal) (w : (⟨2, ![K, C]⟩ : Shape).Idx → EReal) (i : Fin R) (J : Fin C) : EReal :=
  (∑ k : Fin K, (x0 (ix2 i k) - x1 (ix2 i k)) * w (ix2 k J)) * (∑ k : Fin K, (x0 (ix2 i k) - x1 (ix2 i k)) * w (ix2 k J))

/-- The squared Frobenius norm of `(x0 - x1) · w`: the sum of its squared entries. -/
def frob (x0 x1 : (⟨2, ![R, K]⟩ : Shape).Idx → EReal) (w : (⟨2, ![K, C]⟩ : Shape).Idx → EReal) : EReal :=
  ∑ i : Fin R, ∑ J : Fin C, sqEntry x0 x1 w i J

end Cert.FrobAlgebra

end
-- ==== Proof.Accumulate.lean ====
/-
  The running sum across the grid, and what the output array holds after the region.

  The grid has 32 points, 16 per core; point `t` multiplies the difference matrix with column tile `t` of the weights.
  Each core's one-entry accumulator is reset at the core's first point and increased at every point by that point's share
  (the sum of the squared entries of the point's product), so after point `t` it holds the shares of the core's points up
  to `t`. At a core's last point the accumulator is broadcast into the core's block of eight rows of the output array;
  those two blocks tile the array, and every entry of rows 8q … 8q+7 ends at the sum of the shares of core `q`'s points.
-/
import proofs.«120450_j36756330119753_2_alg».proof.Proof.Pieces
import proofs.«120450_j36756330119753_2_alg».proof.Proof.TilePayload
import proofs.«120450_j36756330119753_2_alg».proof.Proof.FrobAlgebra
import Idealize.ShloMosaic.Lib.Pipeline.Value

set_option maxRecDepth 16384

noncomputable section

namespace Cert.KernelIdeal.Accumulate

open Cert.KernelIdeal Cert.KernelIdeal.Gen Cert.KernelIdeal.TilePayload Cert.FrobAlgebra Cert.LibBlocks
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (c : Dev nD)

/-! ## The accumulator point by point -/

/-- The accumulator after the body at position `n`. -/
def accAfter (n : ℕ) (h : n < cfg0.N) : FVec Ideal S1x1 .f32 := (outsAt0 m c n h).2

/-- What a core's first point leaves: the accumulating store's value over the stored zero. -/
def resetTo (n : ℕ) (h : n < cfg0.N) : FVec Ideal S1x1 .f32 :=
  k0_pay2 (F := Ideal) (iblk m c 0 ⟨n, h⟩) (iblk m c 1 ⟨n, h⟩) (k0_pay1 (F := Ideal))

/-- What a later point makes of the accumulator it finds. -/
def stepFrom (n : ℕ) (h : n < cfg0.N) (acc : FVec Ideal S1x1 .f32) : FVec Ideal S1x1 .f32 :=
  k0_pay2 (F := Ideal) (iblk m c 0 ⟨n, h⟩) (iblk m c 1 ⟨n, h⟩) acc

theorem accAfter_reset (n : ℕ) (h : n < cfg0.N) (h0 : n % 16 = 0) : accAfter m c n h = resetTo m c n h := by
  have h1 : ¬n % 16 = 15 := by omega
  refine (congrArg Prod.snd (outsAt0_A m c ⟨n, h⟩ h0 h1)).trans ?_
  exact Pieces.acc_first (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) scM0_0 (Memref.isWhole_whole _) ((hcond0_0 ⟨n, h⟩).mpr h0)
    (fun hh => h1 ((hcond0_1 ⟨n, h⟩).mp hh)) (iblk m c 0 ⟨n, h⟩) (iblk m c 1 ⟨n, h⟩)

theorem accAfter_step (n : ℕ) (h : n + 1 < cfg0.N) (h0 : ¬(n + 1) % 16 = 0) :
    accAfter m c (n + 1) h = stepFrom m c (n + 1) h (accAfter m c n (Nat.lt_of_succ_lt h)) := by
  by_cases h1 : (n + 1) % 16 = 15
  · refine (congrArg Prod.snd (outsAt0_C m c ⟨n + 1, h⟩ h0 h1)).trans ?_
    exact Pieces.acc_last (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) scM0_0 (Memref.isWhole_whole _)
      (fun hh => h0 ((hcond0_0 ⟨n + 1, h⟩).mp hh)) ((hcond0_1 ⟨n + 1, h⟩).mpr h1) (iblk m c 0 ⟨n + 1, h⟩) (iblk m c 1 ⟨n + 1, h⟩)
      (outsAt0 m c n (Nat.lt_of_succ_lt h)).2
  · refine (congrArg Prod.snd (outsAt0_B m c ⟨n + 1, h⟩ h0 h1)).trans ?_
    exact Pieces.acc_middle (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) scM0_0 (Memref.isWhole_whole _)
      (fun hh => h0 ((hcond0_0 ⟨n + 1, h⟩).mp hh)) (fun hh => h1 ((hcond0_1 ⟨n + 1, h⟩).mp hh)) (iblk m c 0 ⟨n + 1, h⟩)
      (iblk m c 1 ⟨n + 1, h⟩) (outsAt0 m c n (Nat.lt_of_succ_lt h)).2

/-- The share of the point at position `n` (zero past the grid). -/
def shareAt (n : ℕ) : EReal :=
  if h : n < cfg0.N then tileSq (iblk m c 0 ⟨n, h⟩) (iblk m c 1 ⟨n, h⟩) else 0

theorem shareAt_of_lt (n : ℕ) (h : n < cfg0.N) : shareAt m c n = tileSq (iblk m c 0 ⟨n, h⟩) (iblk m c 1 ⟨n, h⟩) := dif_pos h

/-- After point `t` the accumulator holds the shares of its core's points up to `t`. -/
theorem accAfter_closed (t : ℕ) (ht : t < cfg0.N) (y : S1x1.Idx) :
    accAfter m c t ht y = 0 + ∑ s ∈ Finset.range (t % 16 + 1), shareAt m c (16 * (t / 16) + s) := by
  have hN : cfg0.N = 32 := N_0
  have h' : 16 * (t / 16) + t % 16 < cfg0.N := by omega
  rw [Pipeline.eq_accAt_of_mod (accAfter m c) 16 (resetTo m c) (stepFrom m c) (accAfter_reset m c) (accAfter_step m c)
    (by norm_num) t ht h']
  refine Pipeline.accAt_add_apply (resetTo m c) (stepFrom m c) (fun _ => (0 : EReal)) (fun n _ => shareAt m c n)
    (16 * (t / 16)) 15 ?_ ?_ (t % 16) (by omega) h' y
  · intro h i
    show k0_pay2 (F := Ideal) _ _ _ i = 0 + shareAt m c _
    rw [pay2_apply, pay1_apply, shareAt_of_lt m c _ h]
  · intro n h acc i _ _
    show k0_pay2 (F := Ideal) _ _ _ i = acc i + shareAt m c n
    rw [pay2_apply, shareAt_of_lt m c n h]

/-! ## The blocks the points read -/

/-- The printed index maps over the grid: the first window never moves, the second is at column tile `t`, the output at
    row block `t / 16`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = t.val / 16 ∧ win0_2.index t (1 : Fin 2) = 0 :=
  (by decide +kernel : ∀ t : Fin grid0.N, _)

/-- Entry `(i, k)` of the first window's array as the region finds it: the difference matrix. -/
def dAt (i : Fin 100) (k : Fin 8192) : EReal := (V m c main_v67 : FVec Ideal S100x8192 .bf16) (ix2 i k)

/-- Entry `(k, J)` of the second window's array as the region finds it: the weights. -/
def wAt (k J : Fin 8192) : EReal := (V m c main_arg2 : FVec Ideal S8192x8192 .f32) (ix2 k J)

/-- The first window's block is the whole difference matrix. -/
theorem iblk0_apply (t : Fin cfg0.N) (i : Fin 100) (k : Fin 8192) :
    iblk m c 0 t (ix2 i k) = dAt m c i k := by
  obtain ⟨e0, e1, -⟩ := idx_facts t
  unfold iblk dAt
  rw [View.read_apply]
  show V m c main_v67 _ = V m c main_v67 _
  congr 1
  funext a; apply Fin.ext
  match a with
  | ⟨0, _⟩ => show win0_0.index t (0 : Fin 2) * 100 + 1 * i.val = i.val; rw [e0]; omega
  | ⟨1, _⟩ => show win0_0.index t (1 : Fin 2) * 8192 + 1 * k.val = k.val; rw [e1]; omega

/-- The second window's block at point `t` is column tile `t` of the weights. -/
theorem iblk1_apply (t : Fin cfg0.N) (k : Fin 8192) (j : Fin 256) (J : Fin 8192) (hJ : J.val = t.val * 256 + j.val) :
    iblk m c 1 t (ix2 k j) = wAt m c k J := by
  obtain ⟨-, -, e0, e1, -⟩ := idx_facts t
  unfold iblk wAt
  rw [View.read_apply]
  show V m c main_arg2 _ = V m c main_arg2 _
  congr 1
  funext a; apply Fin.ext
  match a with
  | ⟨0, _⟩ => show win0_1.index t (0 : Fin 2) * 8192 + 1 * k.val = k.val; rw [e0]; omega
  | ⟨1, _⟩ => show win0_1.index t (1 : Fin 2) * 256 + 1 * j.val = J.val; rw [e1, hJ]; omega

/-- Entry `(i, J)` of the product of the two arrays the region finds, squared. -/
def sqOf (i : Fin 100) (J : Fin 8192) : EReal :=
  (∑ k : Fin 8192, dAt m c i k * wAt m c k J) * (∑ k : Fin 8192, dAt m c i k * wAt m c k J)

theorem tiles : 32 * 256 = 8192 := by norm_num

/-- The share of a point whose blocks read `D` and `Wt` entry by entry. -/
theorem tileSq_eq_of (d : FVec Ideal S100x8192 .bf16) (w : FVec Ideal S8192x256 .f32) (D : Fin 100 → Fin 8192 → EReal)
    (Wt : Fin 8192 → Fin 256 → EReal) (hd : ∀ i k, d (ix2 i k) = D i k) (hw : ∀ k j, w (ix2 k j) = Wt k j) :
    tileSq d w = ∑ i : Fin 100, ∑ j : Fin 256, (∑ k : Fin 8192, D i k * Wt k j) * (∑ k : Fin 8192, D i k * Wt k j) := by
  unfold tileSq
  simp only [hd, hw]

/-- A point's share is its column tile's share of the squared entries. -/
theorem shareAt_eq (n : ℕ) : shareAt m c n = tileSum tiles (sqOf m c) n := by
  have hN : cfg0.N = 32 := N_0
  by_cases h : n < cfg0.N
  · rw [shareAt_of_lt m c n h, tileSum_of_lt tiles (sqOf m c) n (by omega)]
    exact tileSq_eq_of (iblk m c 0 ⟨n, h⟩) (iblk m c 1 ⟨n, h⟩) (dAt m c) (fun k j => wAt m c k (blockRow tiles ⟨n, by omega⟩ j))
      (fun i k => iblk0_apply m c ⟨n, h⟩ i k) (fun k j => iblk1_apply m c ⟨n, h⟩ k j (blockRow tiles ⟨n, by omega⟩ j) rfl)
  · unfold shareAt tileSum
    rw [dif_neg h, dif_neg (by omega)]

/-! ## The output array after the region -/

/-- At a core's last point the output block is the broadcast of the accumulator the point leaves. -/
theorem out_eq_bcast (t : Fin cfg0.N) (h0 : ¬t.val % 16 = 0) (h1 : t.val % 16 = 15) :
    (outsAt0 m c t.val t.isLt).1 = k0_pay3 (F := Ideal) (accAfter m c t.val t.isLt) := by
  unfold accAfter
  rw [outsAt0_C m c t h0 h1]
  dsimp only
  refine (Pieces.out_last (F := Ideal) c (grid0.coords t) (ms0_0 t) (hs0_0 t) (ms0_1 t) (hs0_1 t) (ms0_2 t) (hs0_2 t) scM0_0
    (Memref.isWhole_whole _) (fun hh => h0 ((hcond0_0 t).mp hh)) ((hcond0_1 t).mpr h1) (iblk m c 0 t) (iblk m c 1 t)
    (outsAt0 m c (t.val - 1) (Nat.lt_of_le_of_lt (Nat.sub_le _ _) t.isLt)).2).trans ?_
  exact congrArg (k0_pay3 (F := Ideal)) (Pieces.acc_last (F := Ideal) c (grid0.coords t) (ms0_0 t) (hs0_0 t) (ms0_1 t) (hs0_1 t)
    (ms0_2 t) (hs0_2 t) scM0_0 (Memref.isWhole_whole _) (fun hh => h0 ((hcond0_0 t).mp hh)) ((hcond0_1 t).mpr h1) (iblk m c 0 t)
    (iblk m c 1 t) (outsAt0 m c (t.val - 1) (Nat.lt_of_le_of_lt (Nat.sub_le _ _) t.isLt)).2).symm

/-- What the output array ends holding: in rows 8q … 8q+7, the shares of core `q`'s sixteen points. -/
def outFinal (i : S16x128.Idx) : EReal := 0 + ∑ s ∈ Finset.range 16, shareAt m c (16 * ((i 0).val / 8) + s)

/-- What a core's last point writes back is its block of that array. -/
theorem flushed_eq (t : Fin cfg0.N) (hf : (cfg0.win 2).flush t = true) :
    (dats m 0 c).flushed 2 t = ((cfg0.win 2).blk t).view.read (Elt Ideal) (outFinal m c) := by
  have h1 : t.val % 16 = 15 := (flush0_2 t).mp hf
  have h0 : ¬t.val % 16 = 0 := by omega
  obtain ⟨-, -, -, -, e0, e1⟩ := idx_facts t
  funext y
  show (dats m 0 c).after 2 t ((cfg0.win 2).xinj (grid0.coords t) y) = _
  rw [after0_2, out_eq_bcast m c t h0 h1, pay3_apply, accAfter_closed, View.read_apply]
  have hy : (y 0).val < 8 := (y 0).isLt
  show _ = outFinal m c (((cfg0.win 2).blk t).view.emb y)
  unfold outFinal
  have hr : ((((cfg0.win 2).blk t).view.emb y) 0).val = win0_2.index t (0 : Fin 2) * 8 + 1 * (y 0).val := rfl
  rw [hr, e0, h1]
  have hd : (t.val / 16 * 8 + 1 * (y 0).val) / 8 = t.val / 16 := by omega
  rw [hd]

/-- An index of the output array is in point `t`'s block iff each coordinate is in the block's range. -/
theorem mem_blk (t : Fin cfg0.N) (i : S16x128.Idx) :
    i ∈ ((cfg0.win 2).blk t).view.set
      ↔ ∀ a : Fin 2, win0_2.index t a * S8x128.size a ≤ (i a).val ∧ (i a).val < win0_2.index t a * S8x128.size a + S8x128.size a := by
  show i ∈ ((View.whole main_v68).slice (win0_2.rect t)).set ↔ _
  rw [View.set_slice_whole, Rect.mem_set_unit]
  exact Iff.rfl

/-- The output array after the region. -/
theorem final (c : Dev nD) : (dats m 0 c).arrAt 2 cfg0.N = outFinal m c := by
  have hN : cfg0.N = 32 := N_0
  refine (dats m 0 c).arrAt_eq_of_cover 2 (outFinal m c) (flushed_eq m c) fun i => ?_
  have hi0 : (i 0).val < 16 := (i 0).isLt
  have hi1 : (i 1).val < 128 := (i 1).isLt
  have ht : 16 * ((i 0).val / 8) + 15 < cfg0.N := by omega
  obtain ⟨-, -, -, -, e0, e1⟩ := idx_facts ⟨16 * ((i 0).val / 8) + 15, ht⟩
  refine ⟨⟨16 * ((i 0).val / 8) + 15, ht⟩, (flush0_2 _).mpr (by show (16 * ((i 0).val / 8) + 15) % 16 = 15; omega), ?_⟩
  rw [mem_blk]
  intro a
  match a with
  | ⟨0, _⟩ =>
    show win0_2.index _ (0 : Fin 2) * 8 ≤ (i 0).val ∧ (i 0).val < win0_2.index _ (0 : Fin 2) * 8 + 8
    rw [e0]; show (16 * ((i 0).val / 8) + 15) / 16 * 8 ≤ (i 0).val ∧ (i 0).val < (16 * ((i 0).val / 8) + 15) / 16 * 8 + 8; omega
  | ⟨1, _⟩ =>
    show win0_2.index _ (1 : Fin 2) * 128 ≤ (i 1).val ∧ (i 1).val < win0_2.index _ (1 : Fin 2) * 128 + 128
    rw [e1]; omega

/-- The two entries the program reads back add up to the sum of all squared entries. -/
theorem two_entries : outFinal m c (ix2 0 0) + outFinal m c (ix2 8 0) = ∑ i : Fin 100, ∑ J : Fin 8192, sqOf m c i J := by
  unfold outFinal
  rw [zero_add, zero_add]
  have a0 : (((ix2 0 0 : S16x128.Idx) 0).val / 8) = 0 := rfl
  have a8 : (((ix2 8 0 : S16x128.Idx) 0).val / 8) = 1 := rfl
  rw [a0, a8]
  simp only [shareAt_eq, Nat.mul_zero, Nat.zero_add, Nat.mul_one]
  exact two_halves (H := 16) tiles (sqOf m c)

end Cert.KernelIdeal.Accumulate

end
-- ==== Proof.HostPrefix.lean ====
/-
  What the host lines before the kernel's region leave in the buffers the rest of the program reads.

  Before the region the program computes, from the first two arguments alone, the kernel-distance term (three Gaussian
  Gram matrices, their upper triangles summed and combined) by exactly the reference's operations, and the difference of
  the two arguments, converted to the narrower float format, which the region stages as its first window. Read on the
  extended reals the first is the reference's own term and the second is the plain difference.
-/
import proofs.«120450_j36756330119753_2_alg».proof.Proof.Gen.KernelIdeal.Frame
import proofs.«120450_j36756330119753_2_alg».proof.Proof.RefReadP
import Idealize.ShloMosaic.Lib.StableHlo.Run

noncomputable section

namespace Cert.KernelIdeal.HostPrefix

open Cert.KernelIdeal Cert.KernelIdeal.Gen
open Idealize.ShloMosaic Idealize.ShloMosaic.TcCoe Idealize.SL.Sem Idealize.ShloMosaic.StableHlo

/-- A value moved to a typed buffer reference's own type and back is itself. -/
theorem ofBuf_toBuf {T : BufTy} (x : TRef sig T) (v : T.Contents (Elt Ideal)) : x.ofBuf (x.toBuf v) = v := by
  unfold TRef.ofBuf TRef.toBuf
  rw [cast_cast]
  exact cast_eq _ _

/-! At the buffers the three upper-triangle masks read and write, the move is the identity. -/
theorem toBuf_v54 (p1 p2 p3) (v : (⟨S100x100, .f32⟩ : BufTy).Contents (Elt Ideal)) : (TRef.of (T := ⟨S100x100, .f32⟩) main_v54 p1 p2 p3).toBuf v = v := rfl
theorem toBuf_v57 (p1 p2 p3) (v : (⟨S100x100, .f32⟩ : BufTy).Contents (Elt Ideal)) : (TRef.of (T := ⟨S100x100, .f32⟩) main_v57 p1 p2 p3).toBuf v = v := rfl
theorem toBuf_v60 (p1 p2 p3) (v : (⟨S100x100, .f32⟩ : BufTy).Contents (Elt Ideal)) : (TRef.of (T := ⟨S100x100, .f32⟩) main_v60 p1 p2 p3).toBuf v = v := rfl
theorem ofBuf_v17 (p1 p2 p3) (v : (⟨S100x100, .f32⟩ : BufTy).Contents (Elt Ideal)) : (TRef.of (T := ⟨S100x100, .f32⟩) main_v17 p1 p2 p3).ofBuf v = v := rfl
theorem ofBuf_v35 (p1 p2 p3) (v : (⟨S100x100, .f32⟩ : BufTy).Contents (Elt Ideal)) : (TRef.of (T := ⟨S100x100, .f32⟩) main_v35 p1 p2 p3).ofBuf v = v := rfl
theorem ofBuf_v53 (p1 p2 p3) (v : (⟨S100x100, .f32⟩ : BufTy).Contents (Elt Ideal)) : (TRef.of (T := ⟨S100x100, .f32⟩) main_v53 p1 p2 p3).ofBuf v = v := rfl

variable (m : (ℓ : Loc nD τ sig) → Buf (Elt Ideal) ℓ)

set_option maxRecDepth 65536 in
set_option maxHeartbeats 40000000 in
/-- The first window's array at the region's entry: the difference of the first two arguments, format-converted. -/
theorem V_diff (c : Dev nD) :
    V m c main_v67
      = (truncf .bf16 (subf (m ((c.tc : Thread nD τ).loc main_arg0) : FVec Ideal S100x8192 .f32)
          (m ((c.tc : Thread nD τ).loc main_arg1) : FVec Ideal S100x8192 .f32)) bitsLt_bf16_f32 : FVec Ideal S100x8192 .bf16) := by
  dsimp only [Gen.V, Gen.V0]
  simp only [hostOps0, hostOps0_1, hostOps0_2, hostOps0_3, hostOps0_4, hostOps0_5, hostOps0_6, List.flatten_cons, List.flatten_nil,
    List.append_nil, List.cons_append, List.nil_append]
  after_results_simp

set_option maxRecDepth 65536 in
set_option maxHeartbeats 40000000 in
/-- The kernel-distance term at the region's entry is the reference's term of the same two arguments. -/
theorem V_mmd (c : Dev nD) :
    (V m c main_v65 : S_.Idx → Ideal .f32)
      = Cert.ReferenceIdeal.ReadP.val_main_v65 (F := Ideal) (m ((c.tc : Thread nD τ).loc main_arg0)) (m ((c.tc : Thread nD τ).loc main_arg1)) := by
  dsimp only [Gen.V, Gen.V0]
  simp only [hostOps0, hostOps0_1, hostOps0_2, hostOps0_3, hostOps0_4, hostOps0_5, hostOps0_6, List.flatten_cons, List.flatten_nil,
    List.append_nil, List.cons_append, List.nil_append]
  after_results_simp
  simp only [ofBuf_toBuf, toBuf_v54, toBuf_v57, toBuf_v60, ofBuf_v17, ofBuf_v35, ofBuf_v53]
  rfl

end Cert.KernelIdeal.HostPrefix

end
-- ==== Proof.RefSide.lean ====
/-
  The reference's result at the ideal reading: its kernel-distance term plus the squared Frobenius norm of
  `(source - target) · weight` — the host's product read entry by entry as the textbook sum, its square, and the host's
  sum over both axes from the zero word as the sum over all rows and columns.
-/
import proofs.«120450_j36756330119753_2_alg».proof.Defs
import proofs.«120450_j36756330119753_2_alg».proof.Proof.RefReadP
import proofs.«120450_j36756330119753_2_alg».proof.Proof.FrobAlgebra

noncomputable section

namespace Cert.ReferenceIdeal.RefSide

open Cert.ReferenceIdeal Cert.ReferenceIdeal.ReadP Cert.FrobAlgebra
open Idealize.ShloMosaic Idealize.ShloMosaic.ValueIdx
open scoped BigOperators

/-- The left operand index of the reference's product at entry `(a, b)` and contraction coordinate `k` is `(a, k)`, -/
theorem lidx_eq (a : Fin 100) (b k : Fin 8192) : lidx_main_v67 (ix2 a b) k = ix2 a k :=
  funext fun d => Fin.ext (by match d with | ⟨0, _⟩ => rfl | ⟨1, _⟩ => rfl)

/-- and the right one is `(k, b)`. -/
theorem ridx_eq (a : Fin 100) (b k : Fin 8192) : ridx_main_v67 (ix2 a b) k = ix2 k b :=
  funext fun d => Fin.ext (by match d with | ⟨0, _⟩ => rfl | ⟨1, _⟩ => rfl)

/-- The reference's result is its kernel-distance term plus the squared Frobenius norm. -/
theorem result_apply (x0 x1 : (⟨S100x8192, .f32⟩ : BufTy).Contents (Elt Ideal)) (x2 : (⟨S8192x8192, .f32⟩ : BufTy).Contents (Elt Ideal))
    (i : S_.Idx) :
    val_main_v70 (F := Ideal) x0 x1 x2 i = val_main_v65 (F := Ideal) x0 x1 i + frob x0 x1 x2 := by
  rw [val_main_v70_apply, val_main_v69_apply, val_main_cst_18_apply]
  show val_main_v65 (F := Ideal) x0 x1 i + (Ideal.ofBits .f32 0x00000000#32 + ∑ j : S100x8192.Idx, val_main_v68 (F := Ideal) x0 x1 x2 j) = _
  rw [Ideal.ofBits_zero_f32, zero_add, sum_idx2]
  refine congrArg (val_main_v65 (F := Ideal) x0 x1 i + ·) ?_
  unfold frob
  refine Finset.sum_congr rfl fun a _ => Finset.sum_congr rfl fun b _ => ?_
  rw [val_main_v68_apply, val_main_v67_apply]
  unfold sqEntry
  have e : (∑ k : Fin 8192, val_main_v66 (F := Ideal) x0 x1 (lidx_main_v67 (ix2 a b) k) * x2 (ridx_main_v67 (ix2 a b) k))
      = ∑ k : Fin 8192, (x0 (ix2 a k) - x1 (ix2 a k)) * x2 (ix2 k b) :=
    Finset.sum_congr rfl fun k _ => by rw [lidx_eq, ridx_eq]; rfl
  rw [e]
  rfl

end Cert.ReferenceIdeal.RefSide

end
-- ==== Proof.KernelRun.lean ====
/-
  The kernel program's run, read.

  After the region the program reads entry (0, 0) and entry (8, 0) of the output array — one entry of each core's block —
  adds them, and adds the result to the kernel-distance term computed before the region. The first is the sum of the
  shares of points 0 … 15, the second of points 16 … 31; together they are the sum of every squared entry of
  `(source - target) · weight`, so the program's result is the reference's: its kernel-distance term plus the squared
  Frobenius norm.
-/
import proofs.«120450_j36756330119753_2_alg».proof.Proof.Accumulate
import proofs.«120450_j36756330119753_2_alg».proof.Proof.HostPrefix
import proofs.«120450_j36756330119753_2_alg».proof.Proof.RefSide
import Idealize.ShloMosaic.Lib.StableHlo.Run

set_option maxRecDepth 16384

noncomputable section

namespace Cert.KernelIdeal.KernelRun

open Cert.KernelIdeal Cert.KernelIdeal.Gen Cert.KernelIdeal.Accumulate Cert.FrobAlgebra
open Idealize.ShloMosaic Idealize.ShloMosaic.TcCoe Idealize.SL.Sem Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

/-- The squared entries of the product of the two arrays the region finds are those of `(source - target) · weight`. -/
theorem sqOf_eq (c : Dev nD) (i : Fin 100) (J : Fin 8192) :
    sqOf m c i J = sqEntry (m ((c.tc : Thread nD τ).loc main_arg0)) (m ((c.tc : Thread nD τ).loc main_arg1))
      (m ((c.tc : Thread nD τ).loc main_arg2)) i J := by
  unfold sqOf sqEntry dAt wAt
  rw [HostPrefix.V_diff m c, V_main_arg2 m c]
  rfl

/-- A one-entry matrix viewed as a scalar reads its one entry. -/
theorem scalar_of_one {α : Type} (x : S1x1.Idx → α) (h : S1x1.ShapeCasts S_) (i : S_.Idx) : shapeCast S_ x h i = x (ix2 0 0) := by
  unfold shapeCast
  exact congrArg x (TilePayload.idx_one _)

/-- The one-entry slice of the output array at row `r`, column 0, reads that entry. -/
theorem slice_entry {α : Type} (Y : S16x128.Idx → α) (r : Fin 16) (off : Fin 2 → ℕ) (hoff : off = ![r.val, 0])
    (h : S16x128.Slices off S1x1) : extractStridedSlice S1x1 off Y h (ix2 0 0) = Y (ix2 r 0) := by
  subst hoff
  refine extractStridedSlice_apply _ Y h (ix2 0 0) (ix2 r 0) fun a => ?_
  match a with
  | ⟨0, _⟩ => rfl
  | ⟨1, _⟩ => rfl

/-- The program's result after the host lines that follow the region. -/
theorem tail_value (c : Dev nD) :
    Pipeline.afterTail₀ cfgs (dats m) 0 (V0 m) [hostOps1] c main_v74
      = Cert.ReferenceIdeal.ReadP.val_main_v70 (F := Ideal) (m ((c.tc : Thread nD τ).loc main_arg0))
          (m ((c.tc : Thread nD τ).loc main_arg1)) (m ((c.tc : Thread nD τ).loc main_arg2)) := by
  unfold Pipeline.afterTail₀
  show StableHlo.after hostOps1 _ (Proc.devRef .tc main_v74) = _
  after_results
  rw [Pipeline.withArrays_of_ne _ c (V0 m c) _ main_v65 (by decide), Pipeline.withArrays_arr spec0 launch0.win.arr_inj c _ _ 2]
  funext i
  have key : ∀ A B C : S_.Idx → EReal, addf (F := Ideal) (φ := .f32) A (addf (F := Ideal) (φ := .f32) B C) i = A i + (B i + C i) :=
    fun _ _ _ => rfl
  refine (key _ _ _).trans ?_
  rw [Cert.ReferenceIdeal.RefSide.result_apply]
  refine congrArg₂ (· + ·) (congrFun (HostPrefix.V_mmd m c) i) ?_
  show shapeCast (α := EReal) S_ (extractStridedSlice (α := EReal) S1x1 ![0, 0] ((dats m 0 c).arrAt 2 cfg0.N) slices_S16x128_S1x1_0_0)
        shapeCasts_S1x1_S_ i
      + shapeCast (α := EReal) S_ (extractStridedSlice (α := EReal) S1x1 ![8, 0] ((dats m 0 c).arrAt 2 cfg0.N) slices_S16x128_S1x1_8_0)
        shapeCasts_S1x1_S_ i
    = _
  rw [scalar_of_one, scalar_of_one, Accumulate.final m c, slice_entry (outFinal m c) 0 ![0, 0] rfl slices_S16x128_S1x1_0_0,
    slice_entry (outFinal m c) 8 ![8, 0] rfl slices_S16x128_S1x1_8_0, two_entries]
  unfold frob
  exact Finset.sum_congr rfl fun a _ => Finset.sum_congr rfl fun b _ => sqOf_eq m c a b

/-- THE RUN: every weakly fair execution of the kernel program terminates with its result at the reference's term of the
    arguments, the arguments unchanged. -/
theorem run : θ_run defs (onTc (τ := τ) (main (F := Ideal))) ⟨m, fun _ => 0, ρ⟩ fun r => ∀ c : Dev nD,
      r.2.mem ((c.tc : Thread nD τ).loc main_v74)
        = Cert.ReferenceIdeal.ReadP.val_main_v70 (F := Ideal) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v74 (Pipeline.mem_restRefs_of main_v74 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KernelRun

end
-- ==== Proof.lean ====
/-
  The certificate of a maximum-mean-discrepancy loss with a weighted Frobenius term.

  Both programs compute, from `source` and `target` (100 × 8192) and `weight` (8192 × 8192), a kernel-distance term — three
  Gaussian Gram matrices, their upper triangles summed and combined — plus the squared Frobenius norm of
  `(source - target) · weight`. The kernel-distance term is computed by the same host operations in both. The Frobenius term
  the reference computes as one product, squared and summed over both axes; the kernel computes it on a grid of 32 points,
  16 per core: point `t` multiplies the difference with column tile `t` (256 columns) of the weights, sums the squares of
  the product, and adds the sum to the core's accumulator, which the core's last point broadcasts into the core's block of
  the output array; the host then adds one entry of each block. On the extended reals the change of float format is the
  identity and both are the sum of every squared entry of the product, regrouped: only commutativity and associativity of
  the addition are used, so the precondition is never opened.

  The modules: FrobAlgebra (the regrouping), RefSide (the reference's result read as that sum), TilePayload (what one
  point adds), Pieces (what each control case of the body leaves), Accumulate (the accumulator point by point and the
  output array after the region), HostPrefix (what the host lines before the region leave), KernelRun (the kernel
  program's run read to the reference's term).
-/
import proofs.«120450_j36756330119753_2_alg».proof.Defs
import proofs.«120450_j36756330119753_2_alg».proof.Proof.Gen.Kernel
import proofs.«120450_j36756330119753_2_alg».proof.Proof.Gen.Kernel.Frame
import proofs.«120450_j36756330119753_2_alg».proof.Proof.Gen.KernelIdeal
import proofs.«120450_j36756330119753_2_alg».proof.Proof.Gen.KernelIdeal.Frame
import proofs.«120450_j36756330119753_2_alg».proof.Proof.Gen.ReferenceIdeal
import proofs.«120450_j36756330119753_2_alg».proof.Proof.Gen.Pre_finite_inputs
import proofs.«120450_j36756330119753_2_alg».proof.Proof.RefRunP
import proofs.«120450_j36756330119753_2_alg».proof.Proof.RefReadP
import proofs.«120450_j36756330119753_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end at the reference's term of the arguments: the kernel by
    its run read back (the kernel-distance term shared, the two output entries regrouped to the squared Frobenius norm), the
    reference by its own run. -/
theorem algebraic : Cert.algebraic_KernelIdeal_ReferenceIdeal := by
  intro m ρ m' ρ' _ hagree
  refine ⟨fun c => Cert.ReferenceIdeal.ReadP.val_main_v70 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v70_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
